-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S256x256x9 : Shape := ⟨3, ![256, 256, 9]⟩
abbrev S256x256 : Shape := ⟨2, ![256, 256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S256x256x9 : S_.BroadcastsInDim S256x256x9 (![] : Fin 0 → Fin S256x256x9.rank)
  reducesTo_S256x256x9_S_d0_1_2 : S256x256x9.ReducesTo [0, 1, 2] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S32768x256 .f32) (main_arg1 : FVec F S256x256x9 .f32) (main_arg2 : FVec F S256x256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S256x256x9 .f32 := Host.absf main_arg1
  let main_cst_0 : FVec F S_ .f32 := constant S_ .f32 0x7F800000#32
  let main_v5 : FVec F S256x256x9 .f32 := broadcastInDim S256x256x9 ![] bcast_S_S256x256x9 main_cst_0
  let main_v6 : IVec S256x256x9 1 := cmpf .olt main_v4 main_v5
  let main_c_1 : IVec S_ 1 := constantI S_ 1 1#1
  let main_v7 : IVec S_ 1 := (fun x v => Host.reduce IntOp.andi x v reducesTo_S256x256x9_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S32768x256 : Shape := ⟨2, ![32768, 256]⟩
abbrev S256x256x9 : Shape := ⟨3, ![256, 256, 9]⟩
abbrev S256x256 : Shape := ⟨2, ![256, 256]⟩
abbrev S256x256x1 : Shape := ⟨3, ![256, 256, 1]⟩
abbrev S_ : Shape := ⟨0, ![]⟩
abbrev S256 : Shape := ⟨1, ![256]⟩
abbrev S1x256 : Shape := ⟨2, ![1, 256]⟩
abbrev S256x256x8 : Shape := ⟨3, ![256, 256, 8]⟩
abbrev S8x256x256 : Shape := ⟨3, ![8, 256, 256]⟩
abbrev S4096x256 : Shape := ⟨2, ![4096, 256]⟩
abbrev S1x256x256 : Shape := ⟨3, ![1, 256, 256]⟩

abbrev nBuf : Space → Nat
  | .hbm => 15
  | .vmem => 6
  | .smem => 0
  | _ => 0

abbrev bufTy : (tb : Table) → Fin (tcTables nBuf tb) → BufTy
  | .hbm, ⟨0, _⟩ => ⟨S32768x256, .f32⟩
  | .hbm, ⟨1, _⟩ => ⟨S256x256x9, .f32⟩
  | .hbm, ⟨2, _⟩ => ⟨S256x256, .f32⟩
  | .hbm, ⟨3, _⟩ => ⟨S256x256x1, .f32⟩
  | .hbm, ⟨4, _⟩ => ⟨S256x256x9, .f32⟩
  | .hbm, ⟨5, _⟩ => ⟨S256x256x9, .f32⟩
  | .hbm, ⟨6, _⟩ => ⟨S256x256x1, .f32⟩
  | .hbm, ⟨7, _⟩ => ⟨S256x256, .f32⟩
  | .hbm, ⟨8, _⟩ => ⟨S_, .f32⟩
  | .hbm, ⟨9, _⟩ => ⟨S256, .f32⟩
  | .hbm, ⟨10, _⟩ => ⟨S1x256, .f32⟩
  | .hbm, ⟨11, _⟩ => ⟨S256x256x8, .f32⟩
  | .hbm, ⟨12, _⟩ => ⟨S8x256x256, .f32⟩
  | .hbm, ⟨13, _⟩ => ⟨S8x256x256, .bf16⟩
  | .hbm, ⟨14, _⟩ => ⟨S32768x256, .f32⟩
  | .local _ .vmem, ⟨0, _⟩ => ⟨S4096x256, .f32⟩
  | .local _ .vmem, ⟨1, _⟩ => ⟨S4096x256, .f32⟩
  | .local _ .vmem, ⟨2, _⟩ => ⟨S8x256x256, .bf16⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S256x256_S256x256x1_0_1 : S256x256.BroadcastsInDim S256x256x1 (![0, 1] : Fin 2 → Fin S256x256x1.rank)
  bcast_S256x256x1_S256x256x9_0_1_2 : S256x256x1.BroadcastsInDim S256x256x9 (![0, 1, 2] : Fin 3 → Fin S256x256x9.rank)
  slices_S256x256x9_S256x256x1_0_0_0 : S256x256x9.Slices ![0, 0, 0] S256x256x1
  shapeCasts_S256x256x1_S256x256 : S256x256x1.ShapeCasts S256x256
  reducesTo_S256x256_S256_d1 : S256x256.ReducesTo [1] S256
  h_S_ : 0 < S_.numel
  shapeCasts_S256_S1x256 : S256.ShapeCasts S1x256
  slices_S256x256x9_S256x256x8_0_0_1 : S256x256x9.Slices ![0, 0, 1] S256x256x8
  transposes_S256x256x8_S8x256x256_2_1_0 : S256x256x8.Transposes [2, 1, 0] S8x256x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  inb_S8x256x256_S1x256x256_1_0_0 : ∀ a, (![1, 0, 0] : Fin 3 → Nat) a + S1x256x256.size a ≤ S8x256x256.size a
  inb_S8x256x256_S1x256x256_2_0_0 : ∀ a, (![2, 0, 0] : Fin 3 → Nat) a + S1x256x256.size a ≤ S8x256x256.size a
  inb_S8x256x256_S1x256x256_3_0_0 : ∀ a, (![3, 0, 0] : Fin 3 → Nat) a + S1x256x256.size a ≤ S8x256x256.size a
  inb_S8x256x256_S1x256x256_4_0_0 : ∀ a, (![4, 0, 0] : Fin 3 → Nat) a + S1x256x256.size a ≤ S8x256x256.size a
  inb_S8x256x256_S1x256x256_5_0_0 : ∀ a, (![5, 0, 0] : Fin 3 → Nat) a + S1x256x256.size a ≤ S8x256x256.size a
  inb_S8x256x256_S1x256x256_6_0_0 : ∀ a, (![6, 0, 0] : Fin 3 → Nat) a + S1x256x256.size a ≤ S8x256x256.size a
  inb_S8x256x256_S1x256x256_7_0_0 : ∀ a, (![7, 0, 0] : Fin 3 → Nat) a + S1x256x256.size a ≤ S8x256x256.size a
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S32768x256.size a
  hwx0_0 : ∀ i : grid0.Coords, EltTy.bits .f32 = 32 ∨ (Rect.block (s := S32768x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S8x256x256.size a
  hwx0_1 : ∀ i : grid0.Coords, EltTy.bits .bf16 = 32 ∨ (Rect.block (s := S8x256x256) S8x256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S32768x256.size a
  hwx0_3 : ∀ i : grid0.Coords, EltTy.bits .f32 = 32 ∨ (Rect.block (s := S32768x256) S4096x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x256 : Shape := ⟨2, ![32768, 256]⟩
abbrev S256x256x9 : Shape := ⟨3, ![256, 256, 9]⟩
abbrev S256x256 : Shape := ⟨2, ![256, 256]⟩
abbrev S_ : Shape := ⟨0, ![]⟩
abbrev S32768x256x1 : Shape := ⟨3, ![32768, 256, 1]⟩
abbrev S32768x256x9 : Shape := ⟨3, ![32768, 256, 9]⟩
abbrev S32768x2304 : Shape := ⟨2, ![32768, 2304]⟩
abbrev S256x256x1 : Shape := ⟨3, ![256, 256, 1]⟩
abbrev S256x2304 : Shape := ⟨2, ![256, 2304]⟩
abbrev S2304x256 : Shape := ⟨2, ![2304, 256]⟩

abbrev nBuf : Space → Nat
  | .hbm => 58
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S256x256x9, .f32⟩
  | .hbm, ⟨2, _⟩ => ⟨S256x256, .f32⟩
  | .hbm, ⟨3, _⟩ => ⟨S32768x256, .f32⟩
  | .hbm, ⟨4, _⟩ => ⟨S_, .f32⟩
  | .hbm, ⟨5, _⟩ => ⟨S32768x256, .f32⟩
  | .hbm, ⟨6, _⟩ => ⟨S_, .f32⟩
  | .hbm, ⟨7, _⟩ => ⟨S32768x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S_, .f32⟩
  | .hbm, ⟨12, _⟩ => ⟨S32768x256, .f32⟩
  | .hbm, ⟨13, _⟩ => ⟨S32768x256, .f32⟩
  | .hbm, ⟨14, _⟩ => ⟨S32768x256, .f32⟩
  | .hbm, ⟨15, _⟩ => ⟨S32768x256, .f32⟩
  | .hbm, ⟨16, _⟩ => ⟨S_, .f32⟩
  | .hbm, ⟨17, _⟩ => ⟨S32768x256, .f32⟩
  | .hbm, ⟨18, _⟩ => ⟨S32768x256, .f32⟩
  | .hbm, ⟨19, _⟩ => ⟨S32768x256, .f32⟩
  | .hbm, ⟨20, _⟩ => ⟨S32768x256, .f32⟩
  | .hbm, ⟨21, _⟩ => ⟨S_, .f32⟩
  | .hbm, ⟨22, _⟩ => ⟨S32768x256, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S_, .f32⟩
  | .hbm, ⟨27, _⟩ => ⟨S32768x256, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S_, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S32768x256, .f32⟩
  | .hbm, ⟨36, _⟩ => ⟨S_, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S32768x256, .f32⟩
  | .hbm, ⟨41, _⟩ => ⟨S32768x256x1, .f32⟩
  | .hbm, ⟨42, _⟩ => ⟨S32768x256x1, .f32⟩
  | .hbm, ⟨43, _⟩ => ⟨S32768x256x1, .f32⟩
  | .hbm, ⟨44, _⟩ => ⟨S32768x256x1, .f32⟩
  | .hbm, ⟨45, _⟩ => ⟨S32768x256x1, .f32⟩
  | .hbm, ⟨46, _⟩ => ⟨S32768x256x1, .f32⟩
  | .hbm, ⟨47, _⟩ => ⟨S32768x256x1, .f32⟩
  | .hbm, ⟨48, _⟩ => ⟨S32768x256x1, .f32⟩
  | .hbm, ⟨49, _⟩ => ⟨S32768x256x1, .f32⟩
  | .hbm, ⟨50, _⟩ => ⟨S32768x256x9, .f32⟩
  | .hbm, ⟨51, _⟩ => ⟨S32768x2304, .f32⟩
  | .hbm, ⟨52, _⟩ => ⟨S256x256x1, .f32⟩
  | .hbm, ⟨53, _⟩ => ⟨S256x256x9, .f32⟩
  | .hbm, ⟨54, _⟩ => ⟨S256x256x9, .f32⟩
  | .hbm, ⟨55, _⟩ => ⟨S256x2304, .f32⟩
  | .hbm, ⟨56, _⟩ => ⟨S2304x256, .f32⟩
  | .hbm, ⟨57, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]

class Facts₀ : Prop where
  bcast_S_S32768x256 : S_.BroadcastsInDim S32768x256 (![] : Fin 0 → Fin S32768x256.rank)
  bcast_S32768x256_S32768x256x1_0_1 : S32768x256.BroadcastsInDim S32768x256x1 (![0, 1] : Fin 2 → Fin S32768x256x1.rank)
  concatenates_S32768x256x1_S32768x256x1_S32768x256x1_S32768x256x1_S32768x256x1_S32768x256x1_S32768x256x1_S32768x256x1_S32768x256x1_S32768x256x9_d2 : Shape.Concatenates [S32768x256x1, S32768x256x1, S32768x256x1, S32768x256x1, S32768x256x1, S32768x256x1, S32768x256x1, S32768x256x1, S32768x256x1] S32768x256x9 2
  shapeCasts_S32768x256x9_S32768x2304 : S32768x256x9.ShapeCasts S32768x2304
  bcast_S256x256_S256x256x1_0_1 : S256x256.BroadcastsInDim S256x256x1 (![0, 1] : Fin 2 → Fin S256x256x1.rank)
  bcast_S256x256x1_S256x256x9_0_1_2 : S256x256x1.BroadcastsInDim S256x256x9 (![0, 1, 2] : Fin 3 → Fin S256x256x9.rank)
  shapeCasts_S256x256x9_S256x2304 : S256x256x9.ShapeCasts S256x2304
  transposes_S256x2304_S2304x256_1_0 : S256x2304.Transposes [1, 0] S2304x256
  dot_S32768x2304_S2304x256_S32768x256_1_0_0_1_n_n_wf : DotDims.WF S32768x2304 S2304x256 S32768x256 [1] [0] [0] [1] [] []

variable [Facts₀]

def dot_S32768x2304_S2304x256_S32768x256_1_0_0_1_n_n : DotDims S32768x2304 S2304x256 S32768x256 where
  lhsContracting := [1]
  rhsContracting := [0]
  lhsNonContracting := [0]
  rhsNonContracting := [1]
  lhsBatch := []
  rhsBatch := []
  wf := dot_S32768x2304_S2304x256_S32768x256_1_0_0_1_n_n_wf

class Facts : Prop extends Facts₀ where

variable [Facts]
-- ==== Proof.LibBlockSum.lean ====
/-
  Regrouping a sum over `Fin (a * b)` as `a` blocks of `b` consecutive terms.
-/
import Idealize.ShloMosaic.PureOps.Ideal

namespace Cert.LibBlockSum

/-- The position `k * b + j` of the `j`-th entry of block `k` lies below `a * b`. -/
theorem block_lt {a b : Nat} (k : Fin a) (j : Fin b) : k.val * b + j.val < a * b := by
  have hk : k.val + 1 ≤ a := k.isLt
  have hj : j.val < b := j.isLt
  calc k.val * b + j.val < k.val * b + b := by omega
    _ = (k.val + 1) * b := by ring
    _ ≤ a * b := Nat.mul_le_mul_right b hk

/-- A sum over `Fin (a * b)` is the sum over the `a` blocks of the sums of the `b` consecutive
terms of each block: `∑ n, f n = ∑ k, ∑ j, f (k * b + j)`. -/
theorem sum_blocks {M : Type*} [AddCommMonoid M] (a b : Nat) (f : Fin (a * b) → M) :
    ∑ n : Fin (a * b), f n
      = ∑ k : Fin a, ∑ j : Fin b, f ⟨k.val * b + j.val, block_lt k j⟩ := by
  -- the bijection (k, j) ↦ j + b * k of Mathlib, then the sum over a product as a double sum
  rw [← (finProdFinEquiv : Fin a × Fin b ≃ Fin (a * b)).sum_comp f, Fintype.sum_prod_type]
  refine Finset.sum_congr rfl (fun k _ => Finset.sum_congr rfl (fun j _ => ?_))
  congr 1
  apply Fin.ext
  simp [finProdFinEquiv, Nat.mul_comm, Nat.add_comm]

/-- The same regrouping when the length is given as a number `N` known to equal `a * b`. -/
theorem sum_blocks_of_eq {M : Type*} [AddCommMonoid M] {N : Nat} (a b : Nat) (h : a * b = N)
    (f : Fin N → M) :
    ∑ n : Fin N, f n
      = ∑ k : Fin a, ∑ j : Fin b, f ⟨k.val * b + j.val, h ▸ block_lt k j⟩ := by
  subst h
  exact sum_blocks a b f

/-- The instance used for 16384 nodes read as 4 blocks of 4096: a sum of extended reals over
`Fin 16384` is the sum over the 4 blocks of the sums of the 4096 terms of each block. -/
theorem sum_16384_blocks (g : Fin 16384 → EReal) :
    ∑ n : Fin 16384, g n
      = ∑ k : Fin 4, ∑ j : Fin 4096, g ⟨k.val * 4096 + j.val, by omega⟩ := by
  exact sum_blocks_of_eq (N := 16384) 4 4096 (by norm_num) g

end Cert.LibBlockSum
-- ==== Proof.LibLiterals.lean ====
/-
  The float literals the two programs scatter, read on the extended reals: the words of one and
  of zero in bf16 and in f32 denote `1` and `0`.
-/
import Idealize.ShloMosaic.PureOps.Ideal
import Idealize.ShloMosaic.PureOps.Ideal.Laws

namespace Cert.LibLiterals

open Idealize.ShloMosaic

/-- The bf16 word `0x3F80` (sign 0, exponent 127, fraction 0) denotes `1`. -/
theorem ofBits_bf16_one : Ideal.ofBits .bf16 0x3F80#16 = (1 : EReal) := by
  simp [Ideal.ofBits, Ideal.ieee, -EReal.coe_mul]; norm_num

/-- The f32 word `0x3F800000` (sign 0, exponent 127, fraction 0) denotes `1`. -/
theorem ofBits_f32_one : Ideal.ofBits .f32 0x3F800000#32 = (1 : EReal) := by
  simp [Ideal.ofBits, Ideal.ieee, -EReal.coe_mul]; norm_num

/-- The bf16 word `0x0000` denotes `0`. -/
theorem ofBits_bf16_zero : Ideal.ofBits .bf16 0x0000#16 = (0 : EReal) := by
  simp [Ideal.ofBits, Ideal.ieee]

/-- The f32 word `0x00000000` denotes `0`. -/
theorem ofBits_f32_zero : Ideal.ofBits .f32 0x00000000#32 = (0 : EReal) := by
  simp [Ideal.ofBits, Ideal.ieee]

/-- The constant array of the bf16 word of one is `1` at every index. -/
theorem constant_bf16_one (s : Shape) (i : s.Idx) :
    (constant s .bf16 0x3F80#16 : FVec Ideal s .bf16) i = (1 : EReal) := ofBits_bf16_one

/-- The constant array of the f32 word of one is `1` at every index. -/
theorem constant_f32_one (s : Shape) (i : s.Idx) :
    (constant s .f32 0x3F800000#32 : FVec Ideal s .f32) i = (1 : EReal) := ofBits_f32_one

/-- The constant array of the bf16 word of zero is `0` at every index. -/
theorem constant_bf16_zero (s : Shape) (i : s.Idx) :
    (constant s .bf16 0x0000#16 : FVec Ideal s .bf16) i = (0 : EReal) := ofBits_bf16_zero

/-- The constant array of the f32 word of zero is `0` at every index. -/
theorem constant_f32_zero (s : Shape) (i : s.Idx) :
    (constant s .f32 0x00000000#32 : FVec Ideal s .f32) i = (0 : EReal) := ofBits_f32_zero

end Cert.LibLiterals
-- ==== Proof.Cheb.lean ====
/-
  The Chebyshev expansion both programs compute, on the extended reals.

  For t = tanh x the polynomials are T₀ = 1, T₁ = t and T_k = (2·t)·T_{k-1} − T_{k-2} for k = 2 … 8, with 2 and 1
  the values of their f32 words and the products grouped as both programs group them. The weight of input i and
  degree k for output o is c_basis[o, i, k] · c_act[o, i]. Entry (b, o) of the result is

      ∑ k < 9, ∑ i < 256, T_k(tanh x[b, i]) · weight(o, i, k).

  One program lays the pairs (i, k) out along ONE axis of length 2304 = 256 · 9, the pair (i, k) at position 9·i + k,
  and takes one sum over it; the other takes the degree-0 term — where T₀ = 1 — as a row of sums of weights added to a
  zero, and adds the eight other degrees to it one after the other. Addition of extended reals is commutative and
  associative, 1 · w = w and 0 + s = s for every extended real, so the three arrangements are one function; nothing
  is asked of the operands.
-/
import Idealize.ShloMosaic.PureOps.Ideal
import Idealize.ShloMosaic.PureOps.Ideal.Laws
import Idealize.ShloMosaic.Lib.ValueIdx
import proofs.«113597_j7404523619230_2_alg».proof.Proof.LibBlockSum
import proofs.«113597_j7404523619230_2_alg».proof.Proof.LibLiterals

noncomputable section

open scoped BigOperators

namespace Cert.Cheb

open Idealize.ShloMosaic Idealize.ShloMosaic.ValueIdx

/-- The f32 words of 2, 1 and 0, as extended reals. -/
abbrev two : EReal := Ideal.ofBits .f32 0x40000000#32
abbrev one : EReal := Ideal.ofBits .f32 0x3F800000#32
abbrev zero : EReal := Ideal.ofBits .f32 0x00000000#32

/-- T₂ … T₈ by the recurrence, each product grouped as (2·t)·T. -/
def c2 (t : EReal) : EReal := two * t * t - one
def c3 (t : EReal) : EReal := two * t * c2 t - t
def c4 (t : EReal) : EReal := two * t * c3 t - c2 t
def c5 (t : EReal) : EReal := two * t * c4 t - c3 t
def c6 (t : EReal) : EReal := two * t * c5 t - c4 t
def c7 (t : EReal) : EReal := two * t * c6 t - c5 t
def c8 (t : EReal) : EReal := two * t * c7 t - c6 t

/-- The nine polynomials at `t`, by degree. -/
def cheb (t : EReal) : Fin 9 → EReal := ![one, t, c2 t, c3 t, c4 t, c5 t, c6 t, c7 t, c8 t]

abbrev SX : Shape := ⟨2, ![32768, 256]⟩
abbrev SCB : Shape := ⟨3, ![256, 256, 9]⟩
abbrev SCA : Shape := ⟨2, ![256, 256]⟩
abbrev SW : Shape := ⟨3, ![8, 256, 256]⟩
abbrev SBias : Shape := ⟨2, ![1, 256]⟩

/-- The weight of input `i` and degree `k` for output `o`. -/
def wt (cb : SCB.Idx → EReal) (ca : SCA.Idx → EReal) (o i : Fin 256) (k : Fin 9) : EReal :=
  cb (ix3 o i k) * ca (ix2 o i)

/-- Degree `k`'s share of entry (b, o): the sum over the inputs. -/
def term (x : SX.Idx → EReal) (cb : SCB.Idx → EReal) (ca : SCA.Idx → EReal) (b : Fin 32768) (o : Fin 256) (k : Fin 9) : EReal :=
  ∑ i : Fin 256, cheb (Ideal.tanh (x (ix2 b i))) k * wt cb ca o i k

/-- The result: entry (b, o) is the sum of the nine degrees' shares. -/
def G (x : SX.Idx → EReal) (cb : SCB.Idx → EReal) (ca : SCA.Idx → EReal) : SX.Idx → EReal :=
  fun j => ∑ k : Fin 9, term x cb ca (j 0) (j 1) k

theorem G_apply (x : SX.Idx → EReal) (cb : SCB.Idx → EReal) (ca : SCA.Idx → EReal) (b : Fin 32768) (o : Fin 256) :
    G x cb ca (ix2 b o) = ∑ k : Fin 9, term x cb ca b o k := rfl

/-! ## One axis of length 2304 -/

/-- Position `n` of the long axis holds input `n / 9` … -/
def hi (n : Fin 2304) : Fin 256 := ⟨n.val / 9, by have := n.isLt; omega⟩
/-- … at degree `n % 9`. -/
def lo (n : Fin 2304) : Fin 9 := ⟨n.val % 9, by have := n.isLt; omega⟩

theorem hi_block (i : Fin 256) (k : Fin 9) (h : i.val * 9 + k.val < 2304) : hi ⟨i.val * 9 + k.val, h⟩ = i :=
  Fin.ext (by have := k.isLt; show (i.val * 9 + k.val) / 9 = i.val; omega)
theorem lo_block (i : Fin 256) (k : Fin 9) (h : i.val * 9 + k.val < 2304) : lo ⟨i.val * 9 + k.val, h⟩ = k :=
  Fin.ext (by have := k.isLt; show (i.val * 9 + k.val) % 9 = k.val; omega)

/-- ONE sum over the long axis is the result: the 2304 positions are 256 blocks of 9, and the double sum may be taken
    in either order. -/
theorem G_long (x : SX.Idx → EReal) (cb : SCB.Idx → EReal) (ca : SCA.Idx → EReal) (b : Fin 32768) (o : Fin 256) :
    ∑ n : Fin 2304, cheb (Ideal.tanh (x (ix2 b (hi n)))) (lo n) * wt cb ca o (hi n) (lo n) = G x cb ca (ix2 b o) := by
  rw [G_apply, Cert.LibBlockSum.sum_blocks_of_eq 256 9 (by norm_num), Finset.sum_comm]
  refine Finset.sum_congr rfl fun k _ => Finset.sum_congr rfl fun i _ => ?_
  rw [hi_block, lo_block]

/-! ## A bias row and eight products added one after the other -/

/-- What is computed at row `r` of `X` and column `q` from eight weight matrices `w` and a bias row: the bias, then
    the degrees 1 … 8 added in order. Generic in the number of rows, so that it reads a block of rows and the whole
    array alike. -/
def bodyAt {R : ℕ} (X : (⟨2, ![R, 256]⟩ : Shape).Idx → EReal) (w : SW.Idx → EReal) (bias : SBias.Idx → EReal)
    (r : Fin R) (q : Fin 256) : EReal :=
  ((((((((bias (ix2 (0 : Fin 1) q)
    + ∑ i : Fin 256, cheb (Ideal.tanh (X (ix2 r i))) 1 * w (ix3 (0 : Fin 8) i q))
    + ∑ i : Fin 256, cheb (Ideal.tanh (X (ix2 r i))) 2 * w (ix3 (1 : Fin 8) i q))
    + ∑ i : Fin 256, cheb (Ideal.tanh (X (ix2 r i))) 3 * w (ix3 (2 : Fin 8) i q))
    + ∑ i : Fin 256, cheb (Ideal.tanh (X (ix2 r i))) 4 * w (ix3 (3 : Fin 8) i q))
    + ∑ i : Fin 256, cheb (Ideal.tanh (X (ix2 r i))) 5 * w (ix3 (4 : Fin 8) i q))
    + ∑ i : Fin 256, cheb (Ideal.tanh (X (ix2 r i))) 6 * w (ix3 (5 : Fin 8) i q))
    + ∑ i : Fin 256, cheb (Ideal.tanh (X (ix2 r i))) 7 * w (ix3 (6 : Fin 8) i q))
    + ∑ i : Fin 256, cheb (Ideal.tanh (X (ix2 r i))) 8 * w (ix3 (7 : Fin 8) i q))

/-- Computed on a block of rows it gives the rows of the whole: row `p` of the block is row `ρ p` of the array. -/
theorem bodyAt_rows {R R' : ℕ} (X : (⟨2, ![R', 256]⟩ : Shape).Idx → EReal) (blk : (⟨2, ![R, 256]⟩ : Shape).Idx → EReal)
    (w : SW.Idx → EReal) (bias : SBias.Idx → EReal) (ρ : Fin R → Fin R')
    (h : ∀ p i, blk (ix2 p i) = X (ix2 (ρ p) i)) (p : Fin R) (q : Fin 256) :
    bodyAt blk w bias p q = bodyAt X w bias (ρ p) q := by
  unfold bodyAt
  simp only [h]

/-- Degree 0's share is the sum of the weights: T₀ = 1 and 1 · w = w. -/
theorem term_zero (x : SX.Idx → EReal) (cb : SCB.Idx → EReal) (ca : SCA.Idx → EReal) (b : Fin 32768) (o : Fin 256) :
    term x cb ca b o 0 = ∑ i : Fin 256, wt cb ca o i 0 := by
  unfold term
  refine Finset.sum_congr rfl fun i _ => ?_
  show one * _ = _
  rw [show one = (1 : EReal) from Cert.LibLiterals.ofBits_f32_one, one_mul]

/-- With the eight matrices holding the weights of degrees 1 … 8 and the bias row holding zero plus the sums of the
    degree-0 weights, the bias and the eight products added in order are the result. -/
theorem bodyAt_eq_G (x : SX.Idx → EReal) (cb : SCB.Idx → EReal) (ca : SCA.Idx → EReal) (w : SW.Idx → EReal) (bias : SBias.Idx → EReal)
    (hw : ∀ (d : Fin 8) (i q : Fin 256), w (ix3 d i q) = wt cb ca q i d.succ)
    (hb : ∀ q : Fin 256, bias (ix2 (0 : Fin 1) q) = zero + ∑ i : Fin 256, wt cb ca q i 0)
    (b : Fin 32768) (o : Fin 256) :
    bodyAt x w bias b o = G x cb ca (ix2 b o) := by
  rw [G_apply, Fin.sum_univ_succ, Fin.sum_univ_eight, term_zero]
  unfold bodyAt
  simp only [hw, hb]
  rw [show zero = (0 : EReal) from Cert.LibLiterals.ofBits_f32_zero, zero_add]
  unfold term
  simp only [add_assoc]
  rfl

end Cert.Cheb

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.Body.lean ====
/-
  What the kernel body leaves in its output block, entry by entry.

  From a block of 4096 rows of x, the eight weight matrices and the bias row, the body forms t = tanh x, starts from the
  bias row repeated over the rows, and adds eight matrix products one after the other: T₁(t)·w₀, T₂(t)·w₁, … , T₈(t)·w₇,
  each polynomial by the recurrence (2·t)·T − T' and each product into a zero accumulator. On the extended reals a
  change of float format is the identity and such a product is, at an entry, the sum over the 256 inputs; so entry
  (p, q) of the block is `Cert.Cheb.bodyAt` of the three operands at row p and column q.
-/
import proofs.«113597_j7404523619230_2_alg».proof.Proof.Gen.KernelIdeal.Frame
import proofs.«113597_j7404523619230_2_alg».proof.Proof.Cheb
import proofs.«113597_j7404523619230_2_alg».proof.Proof.LibDense
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Cheb Cert.Dense

theorem hz2 : (![0, 0] : Fin 2 → Nat) = fun _ => 0 := funext fun a => by fin_cases a <;> rfl

/-- The body's products are plain ones: 4096×256 by 256×256, contracted on the shared axis. -/
theorem dot_plain : dot_S4096x256_S256x256_S4096x256_1_0_0_1_n_n = DotDims.plain 4096 256 256 := rfl

/-! ## The polynomials of a block, entry by entry -/

theorem pay1_at (x0 : FVec Ideal S4096x256 .f32) (j : S4096x256.Idx) : k0_pay1 (F := Ideal) x0 j = Ideal.tanh (x0 j) := rfl
theorem pay2_at (x0 : FVec Ideal S4096x256 .f32) (j : S4096x256.Idx) : k0_pay2 (F := Ideal) x0 j = c2 (Ideal.tanh (x0 j)) := rfl
theorem pay3_at (x0 : FVec Ideal S4096x256 .f32) (j : S4096x256.Idx) : k0_pay3 (F := Ideal) x0 j = c3 (Ideal.tanh (x0 j)) := rfl
theorem pay5_at (x0 : FVec Ideal S4096x256 .f32) (j : S4096x256.Idx) : k0_pay5 (F := Ideal) x0 j = c4 (Ideal.tanh (x0 j)) := rfl
theorem pay6_at (x0 : FVec Ideal S4096x256 .f32) (j : S4096x256.Idx) : k0_pay6 (F := Ideal) x0 j = c4 (Ideal.tanh (x0 j)) := rfl

/-! ## The eight weight matrices: slab `d` of the weights' block -/

theorem slab0 (x1 : Vec Ideal S8x256x256 .bf16) (i q : Fin 256) :
    View.ld x1 r0_2 (ix3 (0 : Fin 1) i q) = x1 (ix3 (0 : Fin 8) i q) := by
  show x1 (r0_2.idx (ix3 (0 : Fin 1) i q)) = _
  refine congrArg x1 (funext fun a => Fin.ext ?_)
  match a with
  | ⟨0, _⟩ => rfl
  | ⟨1, _⟩ => show 0 + 1 * i.val = i.val; omega
  | ⟨2, _⟩ => show 0 + 1 * q.val = q.val; omega
theorem slab1 (x1 : Vec Ideal S8x256x256 .bf16) (i q : Fin 256) :
    View.ld x1 r0_3 (ix3 (0 : Fin 1) i q) = x1 (ix3 (1 : Fin 8) i q) := by
  show x1 (r0_3.idx (ix3 (0 : Fin 1) i q)) = _
  refine congrArg x1 (funext fun a => Fin.ext ?_)
  match a with
  | ⟨0, _⟩ => rfl
  | ⟨1, _⟩ => show 0 + 1 * i.val = i.val; omega
  | ⟨2, _⟩ => show 0 + 1 * q.val = q.val; omega
theorem slab2 (x1 : Vec Ideal S8x256x256 .bf16) (i q : Fin 256) :
    View.ld x1 r0_4 (ix3 (0 : Fin 1) i q) = x1 (ix3 (2 : Fin 8) i q) := by
  show x1 (r0_4.idx (ix3 (0 : Fin 1) i q)) = _
  refine congrArg x1 (funext fun a => Fin.ext ?_)
  match a with
  | ⟨0, _⟩ => rfl
  | ⟨1, _⟩ => show 0 + 1 * i.val = i.val; omega
  | ⟨2, _⟩ => show 0 + 1 * q.val = q.val; omega
theorem slab3 (x1 : Vec Ideal S8x256x256 .bf16) (i q : Fin 256) :
    View.ld x1 r0_5 (ix3 (0 : Fin 1) i q) = x1 (ix3 (3 : Fin 8) i q) := by
  show x1 (r0_5.idx (ix3 (0 : Fin 1) i q)) = _
  refine congrArg x1 (funext fun a => Fin.ext ?_)
  match a with
  | ⟨0, _⟩ => rfl
  | ⟨1, _⟩ => show 0 + 1 * i.val = i.val; omega
  | ⟨2, _⟩ => show 0 + 1 * q.val = q.val; omega
theorem slab4 (x1 : Vec Ideal S8x256x256 .bf16) (i q : Fin 256) :
    View.ld x1 r0_6 (ix3 (0 : Fin 1) i q) = x1 (ix3 (4 : Fin 8) i q) := by
  show x1 (r0_6.idx (ix3 (0 : Fin 1) i q)) = _
  refine congrArg x1 (funext fun a => Fin.ext ?_)
  match a with
  | ⟨0, _⟩ => rfl
  | ⟨1, _⟩ => show 0 + 1 * i.val = i.val; omega
  | ⟨2, _⟩ => show 0 + 1 * q.val = q.val; omega
theorem slab5 (x1 : Vec Ideal S8x256x256 .bf16) (i q : Fin 256) :
    View.ld x1 r0_7 (ix3 (0 : Fin 1) i q) = x1 (ix3 (5 : Fin 8) i q) := by
  show x1 (r0_7.idx (ix3 (0 : Fin 1) i q)) = _
  refine congrArg x1 (funext fun a => Fin.ext ?_)
  match a with
  | ⟨0, _⟩ => rfl
  | ⟨1, _⟩ => show 0 + 1 * i.val = i.val; omega
  | ⟨2, _⟩ => show 0 + 1 * q.val = q.val; omega
theorem slab6 (x1 : Vec Ideal S8x256x256 .bf16) (i q : Fin 256) :
    View.ld x1 r0_8 (ix3 (0 : Fin 1) i q) = x1 (ix3 (6 : Fin 8) i q) := by
  show x1 (r0_8.idx (ix3 (0 : Fin 1) i q)) = _
  refine congrArg x1 (funext fun a => Fin.ext ?_)
  match a with
  | ⟨0, _⟩ => rfl
  | ⟨1, _⟩ => show 0 + 1 * i.val = i.val; omega
  | ⟨2, _⟩ => show 0 + 1 * q.val = q.val; omega
theorem slab7 (x1 : Vec Ideal S8x256x256 .bf16) (i q : Fin 256) :
    View.ld x1 r0_9 (ix3 (0 : Fin 1) i q) = x1 (ix3 (7 : Fin 8) i q) := by
  show x1 (r0_9.idx (ix3 (0 : Fin 1) i q)) = _
  refine congrArg x1 (funext fun a => Fin.ext ?_)
  match a with
  | ⟨0, _⟩ => rfl
  | ⟨1, _⟩ => show 0 + 1 * i.val = i.val; omega
  | ⟨2, _⟩ => show 0 + 1 * q.val = q.val; omega

/-! ## The stored value at an entry -/

/-- The bias row over the rows plus the eight products, at entry (p, q): each product is the sum over the inputs of
    the polynomial of its degree times the weight. -/
theorem pay_at (x0 : FVec Ideal S4096x256 .f32) (x2 : FVec Ideal S1x256 .f32)
    (s0 s1 s2 s3 s4 s5 s6 s7 : FVec Ideal S1x256x256 .bf16) (p : Fin 4096) (q : Fin 256) :
    k0_pay7 (k0_pay1 x0) (k0_pay3 x0) (k0_pay4 x0 x2 s0 s1 s2) (k0_pay5 x0) (k0_pay6 x0) s3 s4 s5 s6 s7 (ix2 p q)
      = ((((((((x2 (ix2 (0 : Fin 1) q)
        + ∑ i : Fin 256, cheb (Ideal.tanh (x0 (ix2 p i))) 1 * s0 (ix3 (0 : Fin 1) i q))
        + ∑ i : Fin 256, cheb (Ideal.tanh (x0 (ix2 p i))) 2 * s1 (ix3 (0 : Fin 1) i q))
        + ∑ i : Fin 256, cheb (Ideal.tanh (x0 (ix2 p i))) 3 * s2 (ix3 (0 : Fin 1) i q))
        + ∑ i : Fin 256, cheb (Ideal.tanh (x0 (ix2 p i))) 4 * s3 (ix3 (0 : Fin 1) i q))
        + ∑ i : Fin 256, cheb (Ideal.tanh (x0 (ix2 p i))) 5 * s4 (ix3 (0 : Fin 1) i q))
        + ∑ i : Fin 256, cheb (Ideal.tanh (x0 (ix2 p i))) 6 * s5 (ix3 (0 : Fin 1) i q))
        + ∑ i : Fin 256, cheb (Ideal.tanh (x0 (ix2 p i))) 7 * s6 (ix3 (0 : Fin 1) i q))
        + ∑ i : Fin 256, cheb (Ideal.tanh (x0 (ix2 p i))) 8 * s7 (ix3 (0 : Fin 1) i q)) := by
  unfold k0_pay7 k0_pay4
  simp only [dot_plain, matmul_plain_zero, addf_apply]
  rw [broadcastTo_1b_ab_apply, shapeCast_self, shapeCast_self]
  unfold mm
  simp only [shapeCast_1ab_ab_apply]
  rfl

/-- ENTRY (p, q) OF THE OUTPUT BLOCK after the body: the bias and the eight products added in order, of the block of x,
    the weights and the bias row. -/
theorem out_at (x0 : Vec Ideal S4096x256 .f32) (x1 : Vec Ideal S8x256x256 .bf16) (x2 : Vec Ideal S1x256 .f32)
    (p : Fin 4096) (q : Fin 256) :
    out0_3 x0 x1 x2 (ix2 p q) = bodyAt x0 x1 x2 p q := by
  unfold out0_3
  rw [View.canon_unit_zero hz2]
  simp only [View.ld_unit_zero (S := S4096x256) hz2, View.ld_unit_zero (S := S1x256) hz2]
  refine (pay_at x0 x2 (View.ld x1 r0_2) (View.ld x1 r0_3) (View.ld x1 r0_4) (View.ld x1 r0_5) (View.ld x1 r0_6)
    (View.ld x1 r0_7) (View.ld x1 r0_8) (View.ld x1 r0_9) p q).trans ?_
  unfold bodyAt
  have e0 : ∀ i : Fin 256, View.ld x1 r0_2 (ix3 (0 : Fin 1) i q) = x1 (ix3 (0 : Fin 8) i q) := fun i => slab0 x1 i q
  have e1 : ∀ i : Fin 256, View.ld x1 r0_3 (ix3 (0 : Fin 1) i q) = x1 (ix3 (1 : Fin 8) i q) := fun i => slab1 x1 i q
  have e2 : ∀ i : Fin 256, View.ld x1 r0_4 (ix3 (0 : Fin 1) i q) = x1 (ix3 (2 : Fin 8) i q) := fun i => slab2 x1 i q
  have e3 : ∀ i : Fin 256, View.ld x1 r0_5 (ix3 (0 : Fin 1) i q) = x1 (ix3 (3 : Fin 8) i q) := fun i => slab3 x1 i q
  have e4 : ∀ i : Fin 256, View.ld x1 r0_6 (ix3 (0 : Fin 1) i q) = x1 (ix3 (4 : Fin 8) i q) := fun i => slab4 x1 i q
  have e5 : ∀ i : Fin 256, View.ld x1 r0_7 (ix3 (0 : Fin 1) i q) = x1 (ix3 (5 : Fin 8) i q) := fun i => slab5 x1 i q
  have e6 : ∀ i : Fin 256, View.ld x1 r0_8 (ix3 (0 : Fin 1) i q) = x1 (ix3 (6 : Fin 8) i q) := fun i => slab6 x1 i q
  have e7 : ∀ i : Fin 256, View.ld x1 r0_9 (ix3 (0 : Fin 1) i q) = x1 (ix3 (7 : Fin 8) i q) := fun i => slab7 x1 i q
  simp only [e0, e1, e2, e3, e4, e5, e6, e7]

end Cert.KernelIdeal.Body

end
-- ==== Proof.Prefix.lean ====
/-
  What the host operations before the kernel leave in the two buffers the kernel reads besides x.

  The weights c_basis[o, i, k] · c_act[o, i] are formed once, the second factor repeated along the degree axis. The
  degrees 1 … 8 are cut out, transposed to [degree, i, o] and passed on (a change of float format, the identity on the
  extended reals): entry (d, i, o) is the weight of degree d + 1. The degree-0 weights are cut out, summed over the
  inputs from a zero, and laid out as one row: entry (0, o) is zero plus the sum over i of the degree-0 weights.
-/
import proofs.«113597_j7404523619230_2_alg».proof.Proof.Gen.KernelIdeal.Frame
import proofs.«113597_j7404523619230_2_alg».proof.Proof.Cheb
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.Prefix

open Cert.KernelIdeal Cert.KernelIdeal.Gen Idealize.ShloMosaic Idealize.ShloMosaic.TcCoe Idealize.ShloMosaic.ValueIdx
open Idealize.ShloMosaic.StableHlo Idealize.SL.Sem Cert.Cheb

/-- The weights: c_basis times c_act repeated along the degree axis. -/
def wFull (cb : FVec Ideal S256x256x9 .f32) (ca : FVec Ideal S256x256 .f32) : FVec Ideal S256x256x9 .f32 :=
  mulf cb (broadcastInDim S256x256x9 ![0, 1, 2] bcast_S256x256x1_S256x256x9_0_1_2
    (broadcastInDim S256x256x1 ![0, 1] bcast_S256x256_S256x256x1_0_1 ca))

/-- The weights of degrees 1 … 8, as [degree, i, o]. -/
def wArr (cb : FVec Ideal S256x256x9 .f32) (ca : FVec Ideal S256x256 .f32) : FVec Ideal S8x256x256 .bf16 :=
  truncf .bf16 (transpose S8x256x256 [2, 1, 0]
    (extractStridedSlice S256x256x8 ![0, 0, 1] (wFull cb ca) slices_S256x256x9_S256x256x8_0_0_1)
    transposes_S256x256x8_S8x256x256_2_1_0) bitsLt_bf16_f32

/-- The row of sums of the degree-0 weights. -/
def biasArr (cb : FVec Ideal S256x256x9 .f32) (ca : FVec Ideal S256x256 .f32) : FVec Ideal S1x256 .f32 :=
  shapeCast S1x256 (Host.reduceAdd (F := Ideal)
    (shapeCast S256x256 (extractStridedSlice S256x256x1 ![0, 0, 0] (wFull cb ca) slices_S256x256x9_S256x256x1_0_0_0)
      shapeCasts_S256x256x1_S256x256)
    (constant (F := Ideal) S_ .f32 0x00000000#32) reducesTo_S256x256_S256_d1 h_S_) shapeCasts_S256_S1x256

/-! ## The buffers as the kernel finds them -/

variable (m : (ℓ : Loc nD τ sig) → Buf (Elt Ideal) ℓ)

/-- The weights' buffer when the kernel starts. -/
theorem V_main_v9 (c : Dev nD) :
    (V m c main_v9 : S8x256x256.Idx → EReal)
      = wArr (m ((c : Thread nD τ).loc main_arg1)) (m ((c : Thread nD τ).loc main_arg2)) := by
  dsimp only [Gen.V, Gen.hostOps0]; after_results; rfl

/-- The bias row's buffer when the kernel starts. -/
theorem V_main_v6 (c : Dev nD) :
    (V m c main_v6 : S1x256.Idx → EReal)
      = biasArr (m ((c : Thread nD τ).loc main_arg1)) (m ((c : Thread nD τ).loc main_arg2)) := by
  dsimp only [Gen.V, Gen.hostOps0]; after_results; rfl

/-! ## Read at an entry -/

theorem wFull_at (cb : FVec Ideal S256x256x9 .f32) (ca : FVec Ideal S256x256 .f32) (o i : Fin 256) (k : Fin 9) :
    wFull cb ca (ix3 o i k) = wt cb ca o i k := by
  show cb (ix3 o i k) * broadcastInDim S256x256x9 ![0, 1, 2] bcast_S256x256x1_S256x256x9_0_1_2
    (broadcastInDim S256x256x1 ![0, 1] bcast_S256x256_S256x256x1_0_1 ca) (ix3 o i k) = _
  rw [broadcastInDim_apply ![0, 1, 2] bcast_S256x256x1_S256x256x9_0_1_2 _ (ix3 o i k) (ix3 o i (0 : Fin 1)) (fun a => by
      match a with
      | ⟨0, _⟩ => show o.val = if (256 : Nat) = 1 then 0 else o.val; rw [if_neg (by decide)]
      | ⟨1, _⟩ => show i.val = if (256 : Nat) = 1 then 0 else i.val; rw [if_neg (by decide)]
      | ⟨2, _⟩ => show 0 = if (1 : Nat) = 1 then 0 else k.val; rw [if_pos rfl]),
    broadcastInDim_apply ![0, 1] bcast_S256x256_S256x256x1_0_1 ca (ix3 o i (0 : Fin 1)) (ix2 o i) (fun a => by
      match a with
      | ⟨0, _⟩ => show o.val = if (256 : Nat) = 1 then 0 else o.val; rw [if_neg (by decide)]
      | ⟨1, _⟩ => show i.val = if (256 : Nat) = 1 then 0 else i.val; rw [if_neg (by decide)])]
  rfl

/-- Entry (d, i, o) of the weights the kernel reads is the weight of degree d + 1. -/
theorem wArr_at (cb : FVec Ideal S256x256x9 .f32) (ca : FVec Ideal S256x256 .f32) (d : Fin 8) (i o : Fin 256) :
    wArr cb ca (ix3 d i o) = wt cb ca o i d.succ := by
  show transpose S8x256x256 [2, 1, 0]
    (extractStridedSlice S256x256x8 ![0, 0, 1] (wFull cb ca) slices_S256x256x9_S256x256x8_0_0_1)
    transposes_S256x256x8_S8x256x256_2_1_0 (ix3 d i o) = _
  rw [transpose_apply [2, 1, 0] _ transposes_S256x256x8_S8x256x256_2_1_0 (ix3 d i o) (ix3 o i d) (fun b => by
      match b with
      | ⟨0, _⟩ => rfl
      | ⟨1, _⟩ => rfl
      | ⟨2, _⟩ => rfl),
    extractStridedSlice_apply ![0, 0, 1] (wFull cb ca) slices_S256x256x9_S256x256x8_0_0_1 (ix3 o i d) (ix3 o i d.succ) (fun a => by
      match a with
      | ⟨0, _⟩ => show o.val = 0 + o.val; omega
      | ⟨1, _⟩ => show i.val = 0 + i.val; omega
      | ⟨2, _⟩ => show d.val + 1 = 1 + d.val; omega),
    wFull_at]

/-- Entry (0, o) of the bias row is zero plus the sum over the inputs of the degree-0 weights. -/
theorem biasArr_at (cb : FVec Ideal S256x256x9 .f32) (ca : FVec Ideal S256x256 .f32) (o : Fin 256) :
    biasArr cb ca (ix2 (0 : Fin 1) o) = zero + ∑ i : Fin 256, wt cb ca o i 0 := by
  unfold biasArr
  rw [shapeCast_a_1a_apply]
  refine (Ideal.hostReduceAdd_single reducesTo_S256x256_S256_d1 (by decide : S256x256.Reduces [(1 : Fin 2)] S256) _ _ (ix1 o)).trans ?_
  show zero + ∑ i : Fin 256, _ = zero + ∑ i : Fin 256, _
  refine congrArg (zero + ·) (Finset.sum_congr rfl fun i _ => ?_)
  rw [shapeCast_apply _ shapeCasts_S256x256x1_S256x256 _ (ix3 o i (0 : Fin 1)) (by
      rw [Shape.rowMajor_val_three, Shape.rowMajor_val_two]
      show (o.val * 256 + i.val) * 1 + 0 = o.val * 256 + i.val
      omega),
    extractStridedSlice_apply ![0, 0, 0] (wFull cb ca) slices_S256x256x9_S256x256x1_0_0_0 (ix3 o i (0 : Fin 1)) (ix3 o i (0 : Fin 9)) (fun a => by
      match a with
      | ⟨0, _⟩ => show o.val = 0 + o.val; omega
      | ⟨1, _⟩ => show i.val = 0 + i.val; omega
      | ⟨2, _⟩ => rfl),
    wFull_at]

end Cert.KernelIdeal.Prefix

end
-- ==== Proof.Blocks.lean ====
/-
  The kernel's result array, from the blocks its grid points write.

  The grid has eight points. Point t reads rows 4096·t … 4096·t + 4095 of x, the whole weights and the whole bias row,
  and writes rows 4096·t … 4096·t + 4095 of the result. What it writes is, entry by entry, the bias plus the eight
  products of that block of rows (`Cert.KernelIdeal.Body.out_at`), which depends on row r of x only: so it is block t of
  ONE array-wide function. The eight blocks tile the 32768 rows, so the result array is that function; with the
  weights and the bias row as the host operations left them it is the Chebyshev expansion `Cert.Cheb.G` of the three
  arguments (`Cert.Cheb.bodyAt_eq_G`).
-/
import proofs.«113597_j7404523619230_2_alg».proof.Proof.Gen.KernelIdeal.Value
import proofs.«113597_j7404523619230_2_alg».proof.Proof.Body
import proofs.«113597_j7404523619230_2_alg».proof.Proof.Prefix
import proofs.«113597_j7404523619230_2_alg».proof.Proof.Cheb

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.Cheb
open Idealize.ShloMosaic.Pipeline (Dat)

/-- The array-wide function: entry (r, q) from row r of `X`, the weights and the bias row. -/
def KG (X : S32768x256.Idx → EReal) (W : S8x256x256.Idx → EReal) (B : S1x256.Idx → EReal) : S32768x256.Idx → EReal :=
  fun J => bodyAt X W B (J 0) (J 1)

/-- An entry computed from a block of 4096 rows starting at row `r0`, the whole weights and the whole bias row, is the
    array-wide function's entry at the row and column it sits at. -/
theorem block_entry (X : S32768x256.Idx → EReal) (W : S8x256x256.Idx → EReal) (B : S1x256.Idx → EReal)
    (b0 : S4096x256.Idx → EReal) (b1 : S8x256x256.Idx → EReal) (b2 : S1x256.Idx → EReal)
    (r0 : ℕ) (hr0 : r0 + 4096 ≤ 32768)
    (h0 : ∀ (p : Fin 4096) (i : Fin 256), b0 (ix2 p i) = X (ix2 (⟨r0 + p.val, by have := p.isLt; omega⟩ : Fin 32768) i))
    (h1 : b1 = W) (h2 : b2 = B) (p : Fin 4096) (q : Fin 256) (J : S32768x256.Idx)
    (hJ0 : (J 0).val = r0 + p.val) (hJ1 : (J 1).val = q.val) :
    bodyAt b0 b1 b2 p q = KG X W B J := by
  subst h1 h2
  have e0 : J 0 = (⟨r0 + p.val, by have := p.isLt; omega⟩ : Fin 32768) := Fin.ext hJ0
  have e1 : J 1 = q := Fin.ext hJ1
  unfold KG
  rw [e0, e1]
  exact bodyAt_rows X b0 b1 b2 (fun p => (⟨r0 + p.val, by have := p.isLt; omega⟩ : Fin 32768)) h0 p q

variable (m : (ℓ : Loc nD τ sig) → Buf (Elt Ideal) ℓ) (ρ : Dev nD → PrngReg)

/-- The printed index maps over the eight points: the block of x moves with the block of the result, down the rows; the
    weights and the bias row stay. -/
theorem idx_facts : ∀ t : Fin cfg0.N,
    win0_0.index t (0 : Fin 2) = win0_3.index t (0 : Fin 2) ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) ≤ 7 ∧ win0_3.index t (1 : Fin 2) = 0 :=
  (by decide +kernel : ∀ t : Fin grid0.N, _)

/-- Every block of rows is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- WHAT POINT `t` WRITES BACK is block `t` of the array-wide function of the arrays as the kernel finds them. -/
theorem flushed_eq (c : Dev nD) (t : Fin cfg0.N) :
    (dats m 0 c).flushed 3 t
      = ((cfg0.win 3).blk t).view.read (Elt Ideal) (KG (V m c main_arg0) (V m c main_v9) (V m c main_v6)) := by
  rw [flushed3]
  obtain ⟨e00, e01, e10, e11, e12, e20, e21, e30, e31⟩ := idx_facts t
  funext j
  show out0_3 (iblk m c 0 t) (iblk m c 1 t) (iblk m c 2 t) j
    = KG (V m c main_arg0) (V m c main_v9) (V m c main_v6) (((cfg0.win 3).blk t).view.emb j)
  have hj0 : (j 0).val < 4096 := (j 0).isLt
  have hj1 : (j 1).val < 256 := (j 1).isLt
  have h0 : ∀ (p : Fin 4096) (i : Fin 256), iblk m c 0 t (ix2 p i)
      = V m c main_arg0 (ix2 (⟨win0_3.index t (0 : Fin 2) * 4096 + p.val, by have := p.isLt; omega⟩ : Fin 32768) i) := by
    intro p i
    show V m c main_arg0 (((cfg0.win 0).blk t).view.emb (ix2 p i)) = _
    refine congrArg (V m c main_arg0) (funext fun a => Fin.ext ?_)
    match a with
    | ⟨0, _⟩ => show win0_0.index t (0 : Fin 2) * 4096 + 1 * p.val = win0_3.index t (0 : Fin 2) * 4096 + p.val; omega
    | ⟨1, _⟩ => show win0_0.index t (1 : Fin 2) * 256 + 1 * i.val = i.val; omega
  have h1 : iblk m c 1 t = V m c main_v9 := by
    funext y
    show V m c main_v9 (((cfg0.win 1).blk t).view.emb y) = V m c main_v9 y
    refine congrArg (V m c main_v9) (funext fun a => Fin.ext ?_)
    match a with
    | ⟨0, _⟩ => show win0_1.index t (0 : Fin 3) * 8 + 1 * (y 0).val = (y 0).val; omega
    | ⟨1, _⟩ => show win0_1.index t (1 : Fin 3) * 256 + 1 * (y 1).val = (y 1).val; omega
    | ⟨2, _⟩ => show win0_1.index t (2 : Fin 3) * 256 + 1 * (y 2).val = (y 2).val; omega
  have h2 : iblk m c 2 t = V m c main_v6 := by
    funext y
    show V m c main_v6 (((cfg0.win 2).blk t).view.emb y) = V m c main_v6 y
    refine congrArg (V m c main_v6) (funext fun a => Fin.ext ?_)
    match a with
    | ⟨0, _⟩ => show win0_2.index t (0 : Fin 2) * 1 + 1 * (y 0).val = (y 0).val; omega
    | ⟨1, _⟩ => show win0_2.index t (1 : Fin 2) * 256 + 1 * (y 1).val = (y 1).val; omega
  rw [eq_ix2 (n0 := 4096) (n1 := 256) j]
  refine (Body.out_at (iblk m c 0 t) (iblk m c 1 t) (iblk m c 2 t) (j 0) (j 1)).trans ?_
  refine block_entry (V m c main_arg0) (V m c main_v9) (V m c main_v6) (iblk m c 0 t) (iblk m c 1 t) (iblk m c 2 t)
    (win0_3.index t (0 : Fin 2) * 4096) (by omega) h0 h1 h2 (j 0) (j 1) _ ?_ ?_
  · show win0_3.index t (0 : Fin 2) * 4096 + 1 * (j 0).val = win0_3.index t (0 : Fin 2) * 4096 + (j 0).val
    omega
  · show win0_3.index t (1 : Fin 2) * 256 + 1 * (j 1).val = (j 1).val
    omega

/-- An index of the array is in point `t`'s block iff each coordinate is in the block's range on its axis. -/
theorem mem_blk (t : Fin cfg0.N) (i : S32768x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v10).slice (win0_3.rect t)).set ↔ _
  rw [View.set_slice_whole, Rect.mem_set_unit]
  exact Iff.rfl

/-- Every entry of the result is in some point's block: row r in the block of point r / 4096. -/
theorem cover (i : S32768x256.Idx) : ∃ t : Fin cfg0.N, (cfg0.win 3).flush t = true ∧ i ∈ ((cfg0.win 3).blk t).view.set := by
  have hi0 : (i 0).val < 32768 := (i 0).isLt
  have hi1 : (i 1).val < 256 := (i 1).isLt
  obtain ⟨t, ht⟩ := idx_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 256 ≤ (i 1).val ∧ (i 1).val < win0_3.index t (1 : Fin 2) * 256 + 256
    omega

/-- THE RESULT ARRAY after the run is the array-wide function of the arrays as the kernel finds them. -/
theorem final (c : Dev nD) :
    (dats m 0 c).arrAt 3 cfg0.N = KG (V m c main_arg0) (V m c main_v9) (V m c main_v6) :=
  (dats m 0 c).arrAt_eq_of_cover 3 _ (fun t _ => flushed_eq m c t) cover

/-- … which, with the weights and the bias row the host operations left, is the expansion of the three arguments. -/
theorem final_G (c : Dev nD) :
    (dats m 0 c).arrAt 3 cfg0.N = G (m ((c : Thread nD τ).loc main_arg0)) (m ((c : Thread nD τ).loc main_arg1)) (m ((c : Thread nD τ).loc main_arg2)) := by
  rw [final, V_main_arg0, Prefix.V_main_v9, Prefix.V_main_v6]
  funext J
  obtain ⟨b, o, rfl⟩ : ∃ (b : Fin 32768) (o : Fin 256), J = ix2 b o := ⟨J 0, J 1, eq_ix2 J⟩
  exact bodyAt_eq_G _ _ _ _ _ (fun d i q => Prefix.wArr_at _ _ d i q) (fun q => Prefix.biasArr_at _ _ q) b o

/-- THE KERNEL'S RUN: it terminates with the result array at the expansion of the arguments, the arguments unchanged. -/
theorem run : θ_run defs (onTc (τ := τ) (main (F := Ideal))) ⟨m, fun _ => 0, ρ⟩ fun r => ∀ c : Dev nD,
      r.2.mem ((c : Thread nD τ).loc main_v10) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_G m c), (h c).2⟩) (run_blocks m ρ)

end Cert.KernelIdeal.Blocks

end
-- ==== Proof.RefValue.lean ====
/-
  The reference's result is the Chebyshev expansion `Cert.Cheb.G` of its three arguments.

  Its stages, entry by entry: the hyperbolic tangent; the polynomials T₂ … T₈ by the recurrence (2·t)·T − T'; the nine
  arrays [b, i, 1] of T₀ … T₈ joined along their last axis and flattened to [b, 9·i + k]; the weights
  c_basis[o, i, k] · c_act[o, i] flattened to [o, 9·i + k] and transposed; and their product, one sum over the 2304
  positions — which is the double sum over the nine degrees and the 256 inputs (`Cert.Cheb.G_long`).
-/
import proofs.«113597_j7404523619230_2_alg».proof.Proof.Gen.ReferenceIdeal.Read
import proofs.«113597_j7404523619230_2_alg».proof.Proof.Cheb
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Cheb

/-! ## The polynomials, entry by entry -/

/-- The hyperbolic tangent of the input. -/
theorem v0_at (x0 : (⟨S32768x256, .f32⟩ : BufTy).Contents (Elt Ideal)) (i : S32768x256.Idx) : val_main_v0 (F := Ideal) x0 i = Ideal.tanh (x0 i) := rfl

/-- T₀: the array of ones. -/
theorem v1_at (i : S32768x256.Idx) : val_main_v1 (F := Ideal) i = one := by
  rw [val_main_v1_apply]
  rfl

/-- T₂ = (2·t)·t − 1. -/
theorem v5_at (x0 : (⟨S32768x256, .f32⟩ : BufTy).Contents (Elt Ideal)) (i : S32768x256.Idx) : val_main_v5 (F := Ideal) x0 i = c2 (Ideal.tanh (x0 i)) := by
  rw [val_main_v5_apply, val_main_v4_apply, val_main_v3_apply, val_main_v2_apply, val_main_v1_apply]
  rfl

/-- T3, entry by entry. -/
theorem v9_at (x0 : (⟨S32768x256, .f32⟩ : BufTy).Contents (Elt Ideal)) (i : S32768x256.Idx) : val_main_v9 (F := Ideal) x0 i = c3 (Ideal.tanh (x0 i)) := by
  rw [val_main_v9_apply, val_main_v8_apply, val_main_v7_apply, val_main_v6_apply, v5_at]
  rfl
/-- T4, entry by entry. -/
theorem v13_at (x0 : (⟨S32768x256, .f32⟩ : BufTy).Contents (Elt Ideal)) (i : S32768x256.Idx) : val_main_v13 (F := Ideal) x0 i = c4 (Ideal.tanh (x0 i)) := by
  rw [val_main_v13_apply, val_main_v12_apply, val_main_v11_apply, val_main_v10_apply, v9_at, v5_at]
  rfl
/-- T5, entry by entry. -/
theorem v17_at (x0 : (⟨S32768x256, .f32⟩ : BufTy).Contents (Elt Ideal)) (i : S32768x256.Idx) : val_main_v17 (F := Ideal) x0 i = c5 (Ideal.tanh (x0 i)) := by
  rw [val_main_v17_apply, val_main_v16_apply, val_main_v15_apply, val_main_v14_apply, v13_at, v9_at]
  rfl
/-- T6, entry by entry. -/
theorem v21_at (x0 : (⟨S32768x256, .f32⟩ : BufTy).Contents (Elt Ideal)) (i : S32768x256.Idx) : val_main_v21 (F := Ideal) x0 i = c6 (Ideal.tanh (x0 i)) := by
  rw [val_main_v21_apply, val_main_v20_apply, val_main_v19_apply, val_main_v18_apply, v17_at, v13_at]
  rfl
/-- T7, entry by entry. -/
theorem v25_at (x0 : (⟨S32768x256, .f32⟩ : BufTy).Contents (Elt Ideal)) (i : S32768x256.Idx) : val_main_v25 (F := Ideal) x0 i = c7 (Ideal.tanh (x0 i)) := by
  rw [val_main_v25_apply, val_main_v24_apply, val_main_v23_apply, val_main_v22_apply, v21_at, v17_at]
  rfl
/-- T8, entry by entry. -/
theorem v29_at (x0 : (⟨S32768x256, .f32⟩ : BufTy).Contents (Elt Ideal)) (i : S32768x256.Idx) : val_main_v29 (F := Ideal) x0 i = c8 (Ideal.tanh (x0 i)) := by
  rw [val_main_v29_apply, val_main_v28_apply, val_main_v27_apply, val_main_v26_apply, v25_at, v21_at]
  rfl

/-! ## The nine pieces joined along the last axis -/

theorem idx30 (b : Fin 32768) (i : Fin 256) : idx_main_v30 (ix3 b i (0 : Fin 1)) = ix2 b i :=
  funext fun a => Fin.ext (by match a with | ⟨0, _⟩ => rfl | ⟨1, _⟩ => rfl)
theorem idx31 (b : Fin 32768) (i : Fin 256) : idx_main_v31 (ix3 b i (0 : Fin 1)) = ix2 b i :=
  funext fun a => Fin.ext (by match a with | ⟨0, _⟩ => rfl | ⟨1, _⟩ => rfl)
theorem idx32 (b : Fin 32768) (i : Fin 256) : idx_main_v32 (ix3 b i (0 : Fin 1)) = ix2 b i :=
  funext fun a => Fin.ext (by match a with | ⟨0, _⟩ => rfl | ⟨1, _⟩ => rfl)
theorem idx33 (b : Fin 32768) (i : Fin 256) : idx_main_v33 (ix3 b i (0 : Fin 1)) = ix2 b i :=
  funext fun a => Fin.ext (by match a with | ⟨0, _⟩ => rfl | ⟨1, _⟩ => rfl)
theorem idx34 (b : Fin 32768) (i : Fin 256) : idx_main_v34 (ix3 b i (0 : Fin 1)) = ix2 b i :=
  funext fun a => Fin.ext (by match a with | ⟨0, _⟩ => rfl | ⟨1, _⟩ => rfl)
theorem idx35 (b : Fin 32768) (i : Fin 256) : idx_main_v35 (ix3 b i (0 : Fin 1)) = ix2 b i :=
  funext fun a => Fin.ext (by match a with | ⟨0, _⟩ => rfl | ⟨1, _⟩ => rfl)
theorem idx36 (b : Fin 32768) (i : Fin 256) : idx_main_v36 (ix3 b i (0 : Fin 1)) = ix2 b i :=
  funext fun a => Fin.ext (by match a with | ⟨0, _⟩ => rfl | ⟨1, _⟩ => rfl)
theorem idx37 (b : Fin 32768) (i : Fin 256) : idx_main_v37 (ix3 b i (0 : Fin 1)) = ix2 b i :=
  funext fun a => Fin.ext (by match a with | ⟨0, _⟩ => rfl | ⟨1, _⟩ => rfl)
theorem idx38 (b : Fin 32768) (i : Fin 256) : idx_main_v38 (ix3 b i (0 : Fin 1)) = ix2 b i :=
  funext fun a => Fin.ext (by match a with | ⟨0, _⟩ => rfl | ⟨1, _⟩ => rfl)

/-- The nine arrays [b, i, 1] the reference joins, by degree. -/
def pieces (x0 : (⟨S32768x256, .f32⟩ : BufTy).Contents (Elt Ideal)) : Fin 9 → (S32768x256x1.Idx → EReal) :=
  ![val_main_v30 (F := Ideal), val_main_v31 (F := Ideal) x0, val_main_v32 (F := Ideal) x0, val_main_v33 (F := Ideal) x0,
    val_main_v34 (F := Ideal) x0, val_main_v35 (F := Ideal) x0, val_main_v36 (F := Ideal) x0, val_main_v37 (F := Ideal) x0,
    val_main_v38 (F := Ideal) x0]

/-- Piece `n` at (b, i, 0) is T_n at the tangent of x[b, i]. -/
theorem pieces_at (x0 : (⟨S32768x256, .f32⟩ : BufTy).Contents (Elt Ideal)) (b : Fin 32768) (i : Fin 256) : ∀ n : Fin 9,
    pieces x0 n (ix3 b i (0 : Fin 1)) = cheb (Ideal.tanh (x0 (ix2 b i))) n
  | ⟨0, _⟩ => by
    show val_main_v30 (F := Ideal) (ix3 b i (0 : Fin 1)) = one
    rw [val_main_v30_apply, v1_at]
  | ⟨1, _⟩ => by
    show val_main_v31 (F := Ideal) x0 (ix3 b i (0 : Fin 1)) = _
    rw [val_main_v31_apply, v0_at, idx31]
    rfl
  | ⟨2, _⟩ => by
    show val_main_v32 (F := Ideal) x0 (ix3 b i (0 : Fin 1)) = _
    rw [val_main_v32_apply, v5_at, idx32]
    rfl
  | ⟨3, _⟩ => by
    show val_main_v33 (F := Ideal) x0 (ix3 b i (0 : Fin 1)) = _
    rw [val_main_v33_apply, v9_at, idx33]
    rfl
  | ⟨4, _⟩ => by
    show val_main_v34 (F := Ideal) x0 (ix3 b i (0 : Fin 1)) = _
    rw [val_main_v34_apply, v13_at, idx34]
    rfl
  | ⟨5, _⟩ => by
    show val_main_v35 (F := Ideal) x0 (ix3 b i (0 : Fin 1)) = _
    rw [val_main_v35_apply, v17_at, idx35]
    rfl
  | ⟨6, _⟩ => by
    show val_main_v36 (F := Ideal) x0 (ix3 b i (0 : Fin 1)) = _
    rw [val_main_v36_apply, v21_at, idx36]
    rfl
  | ⟨7, _⟩ => by
    show val_main_v37 (F := Ideal) x0 (ix3 b i (0 : Fin 1)) = _
    rw [val_main_v37_apply, v25_at, idx37]
    rfl
  | ⟨8, _⟩ => by
    show val_main_v38 (F := Ideal) x0 (ix3 b i (0 : Fin 1)) = _
    rw [val_main_v38_apply, v29_at, idx38]
    rfl
  | ⟨_ + 9, h⟩ => absurd h (by omega)

/-- The flattened join at (b, n): position `n` of the long axis holds degree `n % 9` of input `n / 9`. -/
theorem v40_at (x0 : (⟨S32768x256, .f32⟩ : BufTy).Contents (Elt Ideal)) (b : Fin 32768) (n : Fin 2304) :
    val_main_v40 (F := Ideal) x0 (ix2 b n) = cheb (Ideal.tanh (x0 (ix2 b (hi n)))) (lo n) := by
  rw [val_main_v40_apply]
  unfold val_main_v39
  have hn := n.isLt
  have hb := b.isLt
  refine (concatenate_ofFn_unit_apply (t := S32768x256x9) (s₁ := S32768x256x1) (2 : Fin 3) (pieces x0) _ rfl rfl
    (idx_main_v40 (ix2 b n)) (lo n) ?_ (ix3 b (hi n) (0 : Fin 1)) ?_).trans (pieces_at x0 b (hi n) (lo n))
  · show (b.val * 2304 + n.val) % 9 = n.val % 9
    omega
  · intro a ha
    match a with
    | ⟨0, _⟩ => show b.val = (b.val * 2304 + n.val) / 2304; omega
    | ⟨1, _⟩ => show n.val / 9 = (b.val * 2304 + n.val) / 9 % 256; omega
    | ⟨2, _⟩ => exact absurd rfl ha

/-! ## The weights, flattened and transposed -/

/-- The transposed flattened weights at (n, o): c_basis[o, n / 9, n % 9] · c_act[o, n / 9]. -/
theorem v45_at (x1 : (⟨S256x256x9, .f32⟩ : BufTy).Contents (Elt Ideal)) (x2 : (⟨S256x256, .f32⟩ : BufTy).Contents (Elt Ideal)) (n : Fin 2304) (o : Fin 256) :
    val_main_v45 (F := Ideal) x1 x2 (ix2 n o) = wt x1 x2 o (hi n) (lo n) := by
  rw [val_main_v45_apply, val_main_v44_apply, val_main_v43_apply, val_main_v42_apply, val_main_v41_apply]
  have hn := n.isLt
  have ho := o.isLt
  have e1 : idx_main_v44 (idx_main_v45 (ix2 n o)) = ix3 o (hi n) (lo n) := funext fun a => Fin.ext (by
    match a with
    | ⟨0, _⟩ => show (o.val * 2304 + n.val) / 2304 = o.val; omega
    | ⟨1, _⟩ => show (o.val * 2304 + n.val) / 9 % 256 = n.val / 9; omega
    | ⟨2, _⟩ => show (o.val * 2304 + n.val) % 9 = n.val % 9; omega)
  have e2 : idx_main_v41 (idx_main_v42 (idx_main_v44 (idx_main_v45 (ix2 n o)))) = ix2 o (hi n) := funext fun a => Fin.ext (by
    match a with
    | ⟨0, _⟩ => show (o.val * 2304 + n.val) / 2304 = o.val; omega
    | ⟨1, _⟩ => show (o.val * 2304 + n.val) / 9 % 256 = n.val / 9; omega)
  rw [e2, e1]
  rfl

/-! ## The product -/

/-- THE REFERENCE'S RESULT is the expansion: its one sum over the long axis, regrouped by degree. -/
theorem result_eq (x0 : (⟨S32768x256, .f32⟩ : BufTy).Contents (Elt Ideal)) (x1 : (⟨S256x256x9, .f32⟩ : BufTy).Contents (Elt Ideal)) (x2 : (⟨S256x256, .f32⟩ : BufTy).Contents (Elt Ideal)) : val_main_v46 (F := Ideal) x0 x1 x2 = G x0 x1 x2 := by
  funext j
  obtain ⟨b, o, rfl⟩ : ∃ (b : Fin 32768) (o : Fin 256), j = ix2 b o := ⟨j 0, j 1, eq_ix2 j⟩
  rw [val_main_v46_apply, ← G_long]
  refine Finset.sum_congr rfl fun n _ => ?_
  have el : lidx_main_v46 (ix2 b o) n = ix2 b n := funext fun a => Fin.ext (by
    match a with
    | ⟨0, _⟩ => rfl
    | ⟨1, _⟩ => rfl)
  have er : ridx_main_v46 (ix2 b o) n = ix2 n o := funext fun a => Fin.ext (by
    match a with
    | ⟨0, _⟩ => rfl
    | ⟨1, _⟩ => rfl)
  rw [el, er, v40_at, v45_at]

end Cert.ReferenceIdeal.RefValue

end
-- ==== Proof.lean ====
/-
  The kernel and its reference compute one function on the extended reals.

  Both form t = tanh x and the Chebyshev polynomials T₀ … T₈ of t by the recurrence T_k = (2·t)·T_{k-1} − T_{k-2}, and
  both weigh them with c_basis[o, i, k] · c_act[o, i]: entry (b, o) of the result is the sum over the nine degrees k and
  the 256 inputs i of T_k(tanh x[b, i]) times that weight (`Cert.Cheb.G`). The reference takes it as ONE sum over an axis
  of length 2304 = 256 · 9 (`Cert.ReferenceIdeal.RefValue.result_eq`). The kernel takes the degree-0 term, where T₀ = 1, as
  a row of sums of weights computed beforehand, and adds the other eight degrees to it as eight matrix products, block of
  4096 rows by block (`Cert.KernelIdeal.Blocks.run`). Addition of extended reals is commutative and associative, 1 · w = w
  and 0 + s = s for every extended real, so the two arrangements agree whatever the inputs hold: the precondition is not
  used. The three frames are the generated runs; nothing was rewritten between the kernel and its idealization.
-/
import proofs.«113597_j7404523619230_2_alg».proof.Defs
import proofs.«113597_j7404523619230_2_alg».proof.Proof.Gen.Kernel
import proofs.«113597_j7404523619230_2_alg».proof.Proof.Gen.Kernel.Skeleton
import proofs.«113597_j7404523619230_2_alg».proof.Proof.Gen.Kernel.Launch
import proofs.«113597_j7404523619230_2_alg».proof.Proof.Gen.Kernel.Points
import proofs.«113597_j7404523619230_2_alg».proof.Proof.Gen.Kernel.Frame
import proofs.«113597_j7404523619230_2_alg».proof.Proof.Gen.KernelIdeal
import proofs.«113597_j7404523619230_2_alg».proof.Proof.Gen.KernelIdeal.Skeleton
import proofs.«113597_j7404523619230_2_alg».proof.Proof.Gen.KernelIdeal.Launch
import proofs.«113597_j7404523619230_2_alg».proof.Proof.Gen.KernelIdeal.Points
import proofs.«113597_j7404523619230_2_alg».proof.Proof.Gen.KernelIdeal.Frame
import proofs.«113597_j7404523619230_2_alg».proof.Proof.Gen.ReferenceIdeal
import proofs.«113597_j7404523619230_2_alg».proof.Proof.Gen.Pre_finite_inputs
import proofs.«113597_j7404523619230_2_alg».proof.Proof.Gen.KernelIdeal.Value
import proofs.«113597_j7404523619230_2_alg».proof.Proof.Gen.ReferenceIdeal.Run
import proofs.«113597_j7404523619230_2_alg».proof.Proof.Gen.ReferenceIdeal.Read
import proofs.«113597_j7404523619230_2_alg».proof.Proof.Blocks
import proofs.«113597_j7404523619230_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten between the kernel and its idealization. -/
theorem preserves : Cert.preserves_Kernel_KernelIdeal := trivial

/-- From memories that agree on the three arguments both programs end with the expansion `Cert.Cheb.G` of those
    arguments in their result arrays. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
